-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x768 : Shape := ⟨3, ![8, 2048, 768]⟩
abbrev S128x512 : Shape := ⟨2, ![128, 512]⟩
abbrev S128x768 : Shape := ⟨2, ![128, 768]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x768 : S_.BroadcastsInDim S8x2048x768 (![] : Fin 0 → Fin S8x2048x768.rank)
  reducesTo_S8x2048x768_S_d0_1_2 : S8x2048x768.ReducesTo [0, 1, 2] S_
  bcast_S_S128x512 : S_.BroadcastsInDim S128x512 (![] : Fin 0 → Fin S128x512.rank)
  reducesTo_S128x512_S_d0_1 : S128x512.ReducesTo [0, 1] S_
  bcast_S_S128x768 : S_.BroadcastsInDim S128x768 (![] : Fin 0 → Fin S128x768.rank)
  reducesTo_S128x768_S_d0_1 : S128x768.ReducesTo [0, 1] S_

variable [Facts]

def fn_part1 {F : FTy → Type} [FloatOps F] (main_arg4 : FVec F S128x768 .f32) (main_arg5 : FVec F S128x768 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x768 .f32 := Host.absf main_arg4
  let main_cst_6 : FVec F S_ .f32 := constant S_ .f32 0x7F800000#32
  let main_v20 : FVec F S128x768 .f32 := broadcastInDim S128x768 ![] bcast_S_S128x768 main_cst_6
  let main_v21 : IVec S128x768 1 := cmpf .olt main_v19 main_v20
  let main_c_7 : IVec S_ 1 := constantI S_ 1 1#1
  let main_v22 : IVec S_ 1 := (fun x v => Host.reduce IntOp.andi x v reducesTo_S128x768_S_d0_1 h_S_) main_v21 main_c_7
  let main_v23 : IVec S_ 1 := andi main_v18 main_v22
  let main_v24 : FVec F S128x768 .f32 := Host.absf main_arg5
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  main_v28

def fn {F : FTy → Type} [FloatOps F] (main_arg0 : FVec F S8x2048x512 .f32) (main_arg1 : FVec F S8x2048x768 .f32) (main_arg2 : FVec F S8x2048x768 .f32) (main_arg3 : FVec F S128x512 .f32) (main_arg4 : FVec F S128x768 .f32) (main_arg5 : FVec F S128x768 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S8x2048x768 .f32 := Host.absf main_arg2
  let main_cst_2 : FVec F S_ .f32 := constant S_ .f32 0x7F800000#32
  let main_v10 : FVec F S8x2048x768 .f32 := broadcastInDim S8x2048x768 ![] bcast_S_S8x2048x768 main_cst_2
  let main_v11 : IVec S8x2048x768 1 := cmpf .olt main_v9 main_v10
  let main_c_3 : IVec S_ 1 := constantI S_ 1 1#1
  let main_v12 : IVec S_ 1 := (fun x v => Host.reduce IntOp.andi x v reducesTo_S8x2048x768_S_d0_1_2 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S8x2048x512 : Shape := ⟨3, ![8, 2048, 512]⟩
abbrev S8x2048x768 : Shape := ⟨3, ![8, 2048, 768]⟩
abbrev S128x512 : Shape := ⟨2, ![128, 512]⟩
abbrev S128x768 : Shape := ⟨2, ![128, 768]⟩
abbrev S8x2048x128 : Shape := ⟨3, ![8, 2048, 128]⟩
abbrev S1x1024x512 : Shape := ⟨3, ![1, 1024, 512]⟩
abbrev S1x2048x768 : Shape := ⟨3, ![1, 2048, 768]⟩
abbrev S1x1024x128 : Shape := ⟨3, ![1, 1024, 128]⟩
abbrev S2048x128 : Shape := ⟨2, ![2048, 128]⟩
abbrev S2048x768 : Shape := ⟨2, ![2048, 768]⟩
abbrev S1024x512 : Shape := ⟨2, ![1024, 512]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S8x2048x768, .f32⟩
  | .hbm, ⟨2, _⟩ => ⟨S8x2048x768, .f32⟩
  | .hbm, ⟨3, _⟩ => ⟨S128x512, .f32⟩
  | .hbm, ⟨4, _⟩ => ⟨S128x768, .f32⟩
  | .hbm, ⟨5, _⟩ => ⟨S128x768, .f32⟩
  | .hbm, ⟨6, _⟩ => ⟨S8x2048x128, .f32⟩
  | .local _ .vmem, ⟨0, _⟩ => ⟨S1x1024x512, .f32⟩
  | .local _ .vmem, ⟨1, _⟩ => ⟨S1x1024x512, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S128x512, .f32⟩
  | .local _ .vmem, ⟨7, _⟩ => ⟨S128x768, .f32⟩
  | .local _ .vmem, ⟨8, _⟩ => ⟨S128x768, .f32⟩
  | .local _ .vmem, ⟨9, _⟩ => ⟨S1x1024x128, .f32⟩
  | .local _ .vmem, ⟨10, _⟩ => ⟨S1x1024x128, .f32⟩
  | .local _ .vmem, ⟨11, _⟩ => ⟨S2048x128, .bf16⟩
  | .local _ .vmem, ⟨12, _⟩ => ⟨S2048x128, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S128x768_S128x768_0_0 : ∀ a, (![0, 0] : Fin 2 → Nat) a + S128x768.size a ≤ S128x768.size a
  h_S128x768 : 0 < S128x768.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S128x512_S128x512_0_0 : ∀ a, (![0, 0] : Fin 2 → Nat) a + S128x512.size a ≤ S128x512.size a
  h_S128x512 : 0 < S128x512.numel
  reduces_S1024x2048_S1024 : S1024x2048.Reduces [1] S1024
  shapeCasts_S1024_S1024x1 : S1024.ShapeCasts S1024x1
  broadcasts_S1024x1_S1024x2048 : S1024x1.Broadcasts S1024x2048
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S2048x768_S128x768_S2048x128_1_1_0_0_n_n_wf : DotDims.WF S2048x768 S128x768 S2048x128 [1] [1] [0] [0] [] []
  dot_S1024x512_S128x512_S1024x128_1_1_0_0_n_n_wf : DotDims.WF S1024x512 S128x512 S1024x128 [1] [1] [0] [0] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x2048x512.size a
  hwx0_0 : ∀ i : grid0.Coords, EltTy.bits .f32 = 32 ∨ (Rect.block (s := S8x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x2048x768.size a
  hwx0_1 : ∀ i : grid0.Coords, EltTy.bits .f32 = 32 ∨ (Rect.block (s := S8x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S8x2048x768.size a
  hwx0_2 : ∀ i : grid0.Coords, EltTy.bits .f32 = 32 ∨ (Rect.block (s := S8x2048x768) S1x2048x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x768.size a ≤ S128x768.size a
  hwx0_4 : ∀ i : grid0.Coords, EltTy.bits .f32 = 32 ∨ (Rect.block (s := S128x768) S128x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x768.size a ≤ S128x768.size a
  hwx0_5 : ∀ i : grid0.Coords, EltTy.bits .f32 = 32 ∨ (Rect.block (s := S128x768) S128x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S8x2048x128.size a
  hwx0_6 : ∀ i : grid0.Coords, EltTy.bits .f32 = 32 ∨ (Rect.block (s := S8x2048x128) S1x1024x128.size (cc0_transform_6 i) (hinb0_6 i)).WholeWords (EltTy.packing .f32)

variable [Facts₀]

def dot_S2048x768_S128x768_S2048x128_1_1_0_0_n_n : DotDims S2048x768 S128x768 S2048x128 where
  lhsContracting := [1]
  rhsContracting := [1]
  lhsNonContracting := [0]
  rhsNonContracting := [0]
  lhsBatch := []
  rhsBatch := []
  wf := dot_S2048x768_S128x768_S2048x128_1_1_0_0_n_n_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x768 : Shape := ⟨3, ![8, 2048, 768]⟩
abbrev S128x512 : Shape := ⟨2, ![128, 512]⟩
abbrev S128x768 : Shape := ⟨2, ![128, 768]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x768, .f32⟩
  | .hbm, ⟨2, _⟩ => ⟨S8x2048x768, .f32⟩
  | .hbm, ⟨3, _⟩ => ⟨S128x512, .f32⟩
  | .hbm, ⟨4, _⟩ => ⟨S128x768, .f32⟩
  | .hbm, ⟨5, _⟩ => ⟨S128x768, .f32⟩
  | .hbm, ⟨6, _⟩ => ⟨S8x2048x128, .f32⟩
  | .hbm, ⟨7, _⟩ => ⟨S8x2048x128, .f32⟩
  | .hbm, ⟨8, _⟩ => ⟨S8x2048x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x128, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S128x512_S8x2048x128_2_1_01_0_n_n_wf : DotDims.WF S8x2048x512 S128x512 S8x2048x128 [2] [1] [0, 1] [0] [] []
  dot_S8x2048x768_S128x768_S8x2048x128_2_1_01_0_n_n_wf : DotDims.WF S8x2048x768 S128x768 S8x2048x128 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x512_S128x512_S8x2048x128_2_1_01_0_n_n : DotDims S8x2048x512 S128x512 S8x2048x128 where
  lhsContracting := [2]
  rhsContracting := [1]
  lhsNonContracting := [0, 1]
  rhsNonContracting := [0]
  lhsBatch := []
  rhsBatch := []
  wf := dot_S8x2048x512_S128x512_S8x2048x128_2_1_01_0_n_n_wf
def dot_S8x2048x768_S128x768_S8x2048x128_2_1_01_0_n_n : DotDims S8x2048x768 S128x768 S8x2048x128 where
  lhsContracting := [2]
  rhsContracting := [1]
  lhsNonContracting := [0, 1]
  rhsNonContracting := [0]
  lhsBatch := []
  rhsBatch := []
  wf := dot_S8x2048x768_S128x768_S8x2048x128_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Pieces.lean ====
/-
  What one grid point leaves behind, as values.

  At a point that starts a batch element the body projects the batch element's key rows and value rows and keeps both
  projections; at every point it projects its tile of query rows and attends to the kept projections.  Read back
  from the stores the body makes, this says: the kept key projection is the key payload of the point's key block
  and key weights, the kept value projection likewise, and the output tile is the attention payload of the
  point's query block, the query weights and the two kept projections — the ones just stored at a starting point,
  the ones the previous point left otherwise.  Every buffer is stored whole, so each is exactly one payload.
-/
import proofs.«130846_j80453327389402_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not start a batch element: the output tile is the attention payload of the query block,
    the query weights, and the two projections the point before left. -/
theorem out_B (c : Dev nD) (i : grid0.Coords) (arg2 : Memref sig .tc .vmem S1x1024x512 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S128x512 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S1x1024x128 .f32) (harg8 : arg8.IsWhole) (arg9 : Memref sig .tc .vmem S2048x128 .bf16) (harg9 : arg9.IsWhole) (arg10 : Memref sig .tc .vmem S2048x128 .bf16) (harg10 : arg10.IsWhole) (hc0 : ¬cond0_0 i) (x0 : Vec F S1x1024x512 .f32) (x1 : Vec F S1x2048x768 .f32) (x2 : Vec F S1x2048x768 .f32) (x3 : Vec F S128x512 .f32) (x4 : Vec F S128x768 .f32) (x5 : Vec F S128x768 .f32) (xs0 xs1 : Vec F S2048x128 .bf16) :
    out0_B_6 c i arg2 harg2 arg3 harg3 arg4 harg4 arg5 harg5 arg6 harg6 arg7 harg7 arg8 harg8 arg9 harg9 arg10 harg10 hc0 x0 x1 x2 x3 x4 x5 xs0 xs1 = k0_pay3 x0 x3 xs0 xs1 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  rw [View.canon_unit_zero hz3]
  simp only [View.readAt_eq_ld, harg2.read_unread, harg5.read_unread, harg9.read_unread, harg10.read_unread,
    View.ld_unit_zero (S := S1x1024x512) hz3, View.ld_unit_zero (S := S128x512) hz2, View.ld_unit_zero (S := S2048x128) hz2]

/-- A point that starts a batch element keeps the key projection of its key block. -/
theorem keys_A (c : Dev nD) (i : grid0.Coords) (arg2 : Memref sig .tc .vmem S1x1024x512 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S128x512 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S1x1024x128 .f32) (harg8 : arg8.IsWhole) (arg9 : Memref sig .tc .vmem S2048x128 .bf16) (harg9 : arg9.IsWhole) (arg10 : Memref sig .tc .vmem S2048x128 .bf16) (harg10 : arg10.IsWhole) (hc0 : cond0_0 i) (x0 : Vec F S1x1024x512 .f32) (x1 : Vec F S1x2048x768 .f32) (x2 : Vec F S1x2048x768 .f32) (x3 : Vec F S128x512 .f32) (x4 : Vec F S128x768 .f32) (x5 : Vec F S128x768 .f32) :
    sout0_A_0 c i arg2 harg2 arg3 harg3 arg4 harg4 arg5 harg5 arg6 harg6 arg7 harg7 arg8 harg8 arg9 harg9 arg10 harg10 hc0 x0 x1 x2 x3 x4 x5 = k0_pay1 x1 x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero (S := S2048x128) hz2]
  simp only [View.readAt_eq_ld, harg3.read_unread, harg6.read_unread,
    View.ld_unit_zero (S := S1x2048x768) hz3, View.ld_unit_zero (S := S128x768) hz2]

/-- … and the value projection of its value block. -/
theorem values_A (c : Dev nD) (i : grid0.Coords) (arg2 : Memref sig .tc .vmem S1x1024x512 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S128x512 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S1x1024x128 .f32) (harg8 : arg8.IsWhole) (arg9 : Memref sig .tc .vmem S2048x128 .bf16) (harg9 : arg9.IsWhole) (arg10 : Memref sig .tc .vmem S2048x128 .bf16) (harg10 : arg10.IsWhole) (hc0 : cond0_0 i) (x0 : Vec F S1x1024x512 .f32) (x1 : Vec F S1x2048x768 .f32) (x2 : Vec F S1x2048x768 .f32) (x3 : Vec F S128x512 .f32) (x4 : Vec F S128x768 .f32) (x5 : Vec F S128x768 .f32) :
    sout0_A_1 c i arg2 harg2 arg3 harg3 arg4 harg4 arg5 harg5 arg6 harg6 arg7 harg7 arg8 harg8 arg9 harg9 arg10 harg10 hc0 x0 x1 x2 x3 x4 x5 = k0_pay2 x2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero (S := S2048x128) hz2]
  simp only [View.readAt_eq_ld, harg4.read_unread, harg7.read_unread,
    View.ld_unit_zero (S := S1x2048x768) hz3, View.ld_unit_zero (S := S128x768) hz2]

/-- … and its output tile attends to the two projections it has just stored. -/
theorem out_A (c : Dev nD) (i : grid0.Coords) (arg2 : Memref sig .tc .vmem S1x1024x512 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S128x512 .f32) (harg5 : arg5.IsWhole) (arg6 : Memref sig .tc .vmem S128x768 .f32) (harg6 : arg6.IsWhole) (arg7 : Memref sig .tc .vmem S128x768 .f32) (harg7 : arg7.IsWhole) (arg8 : Memref sig .tc .vmem S1x1024x128 .f32) (harg8 : arg8.IsWhole) (arg9 : Memref sig .tc .vmem S2048x128 .bf16) (harg9 : arg9.IsWhole) (arg10 : Memref sig .tc .vmem S2048x128 .bf16) (harg10 : arg10.IsWhole) (hc0 : cond0_0 i) (x0 : Vec F S1x1024x512 .f32) (x1 : Vec F S1x2048x768 .f32) (x2 : Vec F S1x2048x768 .f32) (x3 : Vec F S128x512 .f32) (x4 : Vec F S128x768 .f32) (x5 : Vec F S128x768 .f32) :
    out0_A_6 c i arg2 harg2 arg3 harg3 arg4 harg4 arg5 harg5 arg6 harg6 arg7 harg7 arg8 harg8 arg9 harg9 arg10 harg10 hc0 x0 x1 x2 x3 x4 x5 = k0_pay3 x0 x3 (k0_pay1 x1 x4) (k0_pay2 x2 x5) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz3, View.readCov_unit_zero (S := S2048x128) _ hz2, View.readCov_unit_zero (S := S2048x128) _ hz2]
  simp only [View.readAt_eq_ld, harg2.read_unread, harg3.read_unread, harg4.read_unread, harg5.read_unread,
    harg6.read_unread, harg7.read_unread,
    View.ld_unit_zero (S := S1x1024x512) hz3, View.ld_unit_zero (S := S128x512) hz2,
    View.ld_unit_zero (S := S1x2048x768) hz3, View.ld_unit_zero (S := S128x768) hz2]

end Cert.KernelIdeal.Pieces

end
-- ==== Proof.Blocks.lean ====
/-
  Which rows of the argument arrays a grid point's blocks are.

  The grid has 8 × 2 points, visited batch element by batch element: point t works on batch element t / 2 and on
  the tile t mod 2 of its query rows.  Its query block is rows (t mod 2)·1024, … of batch element t / 2 of the
  queries; its key and value blocks are all rows of batch element t / 2 — the same block at both points of a
  batch element —; its weight blocks are the whole weight matrices; its output block sits where its query block
  does.
-/
import proofs.«130846_j80453327389402_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps, decided once over the sixteen points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 2 ∧ win0_6.index t (1 : Fin 3) = t.val % 2 ∧ win0_6.index t (2 : Fin 3) = 0 :=
  (by decide +kernel : ∀ t : Fin grid0.N, _)

theorem N16 : cfg0.N = 16 := N_0

/-- The batch element a point works on. -/
def batchOf (t : Fin cfg0.N) : Fin 8 := ⟨t.val / 2, by have := t.isLt; have := N16; omega⟩
/-- The first query row of a point's tile. -/
def rowOff (t : Fin cfg0.N) : ℕ := t.val % 2 * 1024
theorem rowOff_le (t : Fin cfg0.N) : rowOff t + 1024 ≤ 2048 := by unfold rowOff; omega

/-- The query block at a point. -/
theorem q_block (c : Dev nD) (t : Fin cfg0.N) (r : Fin 1024) (i : Fin 512) :
    (iblk m c 0 t : Vec F S1x1024x512 .f32) (ix3 (0 : Fin 1) r i)
      = V m c main_arg0 (ix3 (batchOf t) (⟨rowOff t + r.val, by have := rowOff_le t; have := r.isLt; omega⟩ : Fin 2048) i) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val / 2; omega
  | ⟨1, _⟩ => show win0_0.index t (1 : Fin 3) * 1024 + 1 * r.val = t.val % 2 * 1024 + r.val; omega
  | ⟨2, _⟩ => show win0_0.index t (2 : Fin 3) * 512 + 1 * i.val = i.val; omega

/-- The key block at a point: all rows of the point's batch element. -/
theorem k_block (c : Dev nD) (t : Fin cfg0.N) (l : Fin 2048) (i : Fin 768) :
    (iblk m c 1 t : Vec F S1x2048x768 .f32) (ix3 (0 : Fin 1) l i) = V m c main_arg1 (ix3 (batchOf t) l i) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = t.val / 2; omega
  | ⟨1, _⟩ => show win0_1.index t (1 : Fin 3) * 2048 + 1 * l.val = l.val; omega
  | ⟨2, _⟩ => show win0_1.index t (2 : Fin 3) * 768 + 1 * i.val = i.val; omega

/-- The value block at a point: all rows of the point's batch element. -/
theorem v_block (c : Dev nD) (t : Fin cfg0.N) (l : Fin 2048) (i : Fin 768) :
    (iblk m c 2 t : Vec F S1x2048x768 .f32) (ix3 (0 : Fin 1) l i) = V m c main_arg2 (ix3 (batchOf t) l i) := by
  obtain ⟨-, -, -, -, -, -, e0, e1, e2, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 3) * 1 + 1 * 0 = t.val / 2; omega
  | ⟨1, _⟩ => show win0_2.index t (1 : Fin 3) * 2048 + 1 * l.val = l.val; omega
  | ⟨2, _⟩ => show win0_2.index t (2 : Fin 3) * 768 + 1 * i.val = i.val; omega

/-- The three weight blocks are the whole weight matrices. -/
theorem wq_block (c : Dev nD) (t : Fin cfg0.N) (e : Fin 128) (i : Fin 512) :
    (iblk m c 3 t : Vec F S128x512 .f32) (ix2 e i) = V m c main_arg3 (ix2 e i) := by
  obtain ⟨-, -, -, -, -, -, -, -, -, e0, e1, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 128 + 1 * e.val = e.val; omega
  | ⟨1, _⟩ => show win0_3.index t (1 : Fin 2) * 512 + 1 * i.val = i.val; omega

theorem wk_block (c : Dev nD) (t : Fin cfg0.N) (e : Fin 128) (i : Fin 768) :
    (iblk m c 4 t : Vec F S128x768 .f32) (ix2 e i) = V m c main_arg4 (ix2 e i) := by
  obtain ⟨-, -, -, -, -, -, -, -, -, -, -, e0, e1, -⟩ := idx_facts t
  unfold iblk
  rw [View.read_apply]
  show V m c main_arg4 _ = V m c main_arg4 _
  refine congrArg (V m c main_arg4) (funext fun a => Fin.ext ?_)
  match a with
  | ⟨0, _⟩ => show win0_4.index t (0 : Fin 2) * 128 + 1 * e.val = e.val; omega
  | ⟨1, _⟩ => show win0_4.index t (1 : Fin 2) * 768 + 1 * i.val = i.val; omega

theorem wv_block (c : Dev nD) (t : Fin cfg0.N) (e : Fin 128) (i : Fin 768) :
    (iblk m c 5 t : Vec F S128x768 .f32) (ix2 e i) = V m c main_arg5 (ix2 e i) := by
  obtain ⟨-, -, -, -, -, -, -, -, -, -, -, -, -, e0, e1, -⟩ := idx_facts t
  unfold iblk
  rw [View.read_apply]
  show V m c main_arg5 _ = V m c main_arg5 _
  refine congrArg (V m c main_arg5) (funext fun a => Fin.ext ?_)
  match a with
  | ⟨0, _⟩ => show win0_5.index t (0 : Fin 2) * 128 + 1 * e.val = e.val; omega
  | ⟨1, _⟩ => show win0_5.index t (1 : Fin 2) * 768 + 1 * i.val = i.val; omega

/-- Two arrays with a leading axis of extent one agree when they agree at every (0, l, i). -/
theorem ext_1ab {α : Type} {a b : ℕ} (f g : (⟨3, ![1, a, b]⟩ : Shape).Idx → α)
    (h : ∀ (l : Fin a) (i : Fin b), f (ix3 (0 : Fin 1) l i) = g (ix3 (0 : Fin 1) l i)) : f = g :=
  funext fun y => by
    have e : y = ix3 (0 : Fin 1) (y 1) (y 2) := by
      funext d
      match d with
      | ⟨0, _⟩ => exact Fin.ext (by show (y 0).val = 0; have h1 : (y 0).val < 1 := (y 0).isLt; omega)
      | ⟨1, _⟩ => rfl
      | ⟨2, _⟩ => rfl
    rw [e]; exact h _ _

/-- Two matrices agree when they agree at every (e, i). -/
theorem ext_ab {α : Type} {a b : ℕ} (f g : (⟨2, ![a, b]⟩ : Shape).Idx → α)
    (h : ∀ (e : Fin a) (i : Fin b), f (ix2 e i) = g (ix2 e i)) : f = g :=
  funext fun y => by rw [eq_ix2 y]; exact h _ _

/-- The two points of a batch element have the same key block, value block and weight blocks. -/
theorem same_batch (c : Dev nD) (t t' : Fin cfg0.N) (h : t'.val / 2 = t.val / 2) :
    (iblk m c 1 t' : Vec F S1x2048x768 .f32) = iblk m c 1 t ∧ (iblk m c 2 t' : Vec F S1x2048x768 .f32) = iblk m c 2 t
    ∧ (iblk m c 4 t' : Vec F S128x768 .f32) = iblk m c 4 t ∧ (iblk m c 5 t' : Vec F S128x768 .f32) = iblk m c 5 t := by
  have hb : batchOf t' = batchOf t := Fin.ext h
  refine ⟨ext_1ab _ _ fun l i => ?_, ext_1ab _ _ fun l i => ?_, ext_ab _ _ fun e i => ?_, ext_ab _ _ fun e i => ?_⟩
  · exact (k_block m c t' l i).trans ((congrArg (fun b => V m c main_arg1 (ix3 b l i)) hb).trans (k_block m c t l i).symm)
  · exact (v_block m c t' l i).trans ((congrArg (fun b => V m c main_arg2 (ix3 b l i)) hb).trans (v_block m c t l i).symm)
  · exact (wk_block m c t' e i).trans (wk_block m c t e i).symm
  · exact (wv_block m c t' e i).trans (wv_block m c t e i).symm

/-- Where entry (r, d) of a point's output block sits in the result array. -/
theorem out_emb (t : Fin cfg0.N) (r : Fin 1024) (d : Fin 128) :
    (((cfg0.win 6).blk t).view.emb (ix3 (0 : Fin 1) r d) : S8x2048x128.Idx)
      = ix3 (batchOf t) (⟨rowOff t + r.val, by have := rowOff_le t; have := r.isLt; omega⟩ : Fin 2048) d := by
  obtain ⟨-, -, -, -, -, -, -, -, -, -, -, -, -, -, -, e0, e1, e2⟩ := idx_facts t
  refine funext fun a => Fin.ext ?_
  match a with
  | ⟨0, _⟩ => show win0_6.index t (0 : Fin 3) * 1 + 1 * 0 = t.val / 2; omega
  | ⟨1, _⟩ => show win0_6.index t (1 : Fin 3) * 1024 + 1 * r.val = t.val % 2 * 1024 + r.val; omega
  | ⟨2, _⟩ => show win0_6.index t (2 : Fin 3) * 128 + 1 * d.val = d.val; omega

/-- An index of the result array is in a point's output block iff each coordinate is in the block's range. -/
theorem mem_out (t : Fin cfg0.N) (i : S8x2048x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v0).slice (win0_6.rect t)).set ↔ _
  rw [View.set_slice_whole, Rect.mem_set_unit]
  exact Iff.rfl

/-- Every entry of the result array is in the output block of the point of its batch element and tile. -/
theorem out_cover (i : S8x2048x128.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 128 := (i 2).isLt
  have hN := N16
  refine ⟨⟨(i 0).val * 2 + (i 1).val / 1024, by omega⟩, flush0_6 _, ?_⟩
  rw [mem_out]
  obtain ⟨-, -, -, -, -, -, -, -, -, -, -, -, -, -, -, e0, e1, e2⟩ := idx_facts (⟨(i 0).val * 2 + (i 1).val / 1024, by omega⟩ : Fin cfg0.N)
  intro a
  match a with
  | ⟨0, _⟩ =>
    show win0_6.index _ (0 : Fin 3) * 1 ≤ (i 0).val ∧ (i 0).val < win0_6.index _ (0 : Fin 3) * 1 + 1
    rw [e0]; dsimp only; omega
  | ⟨1, _⟩ =>
    show win0_6.index _ (1 : Fin 3) * 1024 ≤ (i 1).val ∧ (i 1).val < win0_6.index _ (1 : Fin 3) * 1024 + 1024
    rw [e1]; dsimp only; omega
  | ⟨2, _⟩ =>
    show win0_6.index _ (2 : Fin 3) * 128 ≤ (i 2).val ∧ (i 2).val < win0_6.index _ (2 : Fin 3) * 128 + 128
    rw [e2]; omega

end Cert.KernelIdeal.Blocks

end
-- ==== Proof.PointValues.lean ====
/-
  What every grid point leaves behind, by induction on the point.

  After any point the two kept projections are those of the point's own key and value blocks, and the output tile
  attends to exactly those: at a point that starts a batch element because the body has just stored them, at the
  batch element's second point because the first point stored them and both points see the same key block, value
  block and weights.
-/
import proofs.«130846_j80453327389402_2_alg».proof.Proof.Pieces
import proofs.«130846_j80453327389402_2_alg».proof.Proof.Blocks

noncomputable section

open Idealize.ShloMosaic Idealize.ShloMosaic.TcCoe Idealize.SL.Sem

namespace Cert.KernelIdeal.Points

open Cert.KernelIdeal Cert.KernelIdeal.Gen Cert.KernelIdeal.Blocks

variable {F : FTy → Type} [FloatOps F]
variable (m : (ℓ : Loc nD τ sig) → Buf (Elt F) ℓ)

/-- The key projection of a point's batch element. -/
abbrev keysAt (c : Dev nD) (t : Fin cfg0.N) : Vec F S2048x128 .bf16 := k0_pay1 (iblk m c 1 t) (iblk m c 4 t)
/-- The value projection of a point's batch element. -/
abbrev valuesAt (c : Dev nD) (t : Fin cfg0.N) : Vec F S2048x128 .bf16 := k0_pay2 (iblk m c 2 t) (iblk m c 5 t)
/-- A point's output tile: its query tile attending to its batch element's projections. -/
abbrev tileAt (c : Dev nD) (t : Fin cfg0.N) : Vec F S1x1024x128 .f32 :=
  k0_pay3 (iblk m c 0 t) (iblk m c 3 t) (keysAt m c t) (valuesAt m c t)

/-- What the output tile and the two kept projections hold after point n. -/
theorem outsAt_eq (c : Dev nD) : ∀ (n : ℕ) (h : n < cfg0.N),
    outsAt0 m c n h = (tileAt m c ⟨n, h⟩, keysAt m c ⟨n, h⟩, valuesAt m c ⟨n, h⟩)
  | 0, h => by
    rw [outsAt0_A m c ⟨0, h⟩ rfl,
      Pieces.out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩),
      Pieces.keys_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩),
      Pieces.values_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩)]
  | n + 1, h => by
    by_cases h0 : (n + 1) % 2 = 0
    · rw [outsAt0_A m c ⟨n + 1, h⟩ h0,
        Pieces.out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩),
        Pieces.keys_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩),
        Pieces.values_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)]
    · have ih := outsAt_eq c n (Nat.lt_of_succ_lt h)
      have hd : (⟨n, Nat.lt_of_succ_lt h⟩ : Fin cfg0.N).val / 2 = (⟨n + 1, h⟩ : Fin cfg0.N).val / 2 := by
        show n / 2 = (n + 1) / 2; omega
      obtain ⟨s1, s2, s4, s5⟩ := same_batch m c ⟨n + 1, h⟩ ⟨n, Nat.lt_of_succ_lt h⟩ hd
      have hk : (outsAt0 m c n (Nat.lt_of_succ_lt h)).2.1 = keysAt m c ⟨n + 1, h⟩ := by
        rw [ih]; show k0_pay1 (iblk m c 1 ⟨n, _⟩) (iblk m c 4 ⟨n, _⟩) = _; rw [s1, s4]
      have hv : (outsAt0 m c n (Nat.lt_of_succ_lt h)).2.2 = valuesAt m c ⟨n + 1, h⟩ := by
        rw [ih]; show k0_pay2 (iblk m c 2 ⟨n, _⟩) (iblk m c 5 ⟨n, _⟩) = _; rw [s2, s5]
      rw [outsAt0_B m c ⟨n + 1, h⟩ h0,
        Pieces.out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _]
      unfold sout0_B_0 sout0_B_1
      show (k0_pay3 (iblk m c 0 ⟨n + 1, h⟩) (iblk m c 3 ⟨n + 1, h⟩) (outsAt0 m c n _).2.1 (outsAt0 m c n _).2.2,
        (outsAt0 m c n _).2.1, (outsAt0 m c n _).2.2) = _
      rw [hk, hv]

end Cert.KernelIdeal.Points

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibSoftmaxRow.lean ====
/-
  The softmax of a row of extended reals, and the two facts that let a row-blocked attention kernel meet a
  reference written with whole arrays.

  `softmaxRow L s` is entry `s` of the softmax of the row `L`: the exponential of the entry's distance below the
  row's largest entry, divided by the sum of those exponentials over the row. A kernel computes it on a block of rows
  as a tree of vector operations — the row maxima kept as a column and stretched back over the rows, a pointwise
  exponential, the row sums kept as a column and stretched back, a pointwise quotient —; read at entry (r, s) that
  tree is `softmaxRow` of row r (`softmax_rows_apply`). The scores themselves come from a contraction; when the
  two rows contracted hold real numbers, multiplying every entry of one row by 1/c before contracting is dividing the
  contraction by c (`sum_scaled_mul`) — on the extended reals this is a law of real numbers only, since a product
  does not move across a sum that meets opposite infinities. Stated over arbitrary extents.
-/
import proofs.«130846_j80453327389402_2_alg».proof.Proof.LibRowLayout
import proofs.«130846_j80453327389402_2_alg».proof.Proof.LibRealSums
import Idealize.ShloMosaic.PureOps.Ideal.Laws
import Idealize.ShloMosaic.Lib.ValueLayout

noncomputable section

namespace Cert.Lib.SoftmaxRow

open Idealize.ShloMosaic Idealize.ShloMosaic.ValueIdx
open Cert.KernelIdeal.MvnKernel

/-- The largest entry of a row of extended reals (−∞ for the empty row). -/
def rowMax {n : ℕ} (L : Fin n → EReal) : EReal := (Finset.univ : Finset (Fin n)).fold max ⊥ L

/-- Entry `s` of the softmax of the row `L`. -/
def softmaxRow {n : ℕ} (L : Fin n → EReal) (s : Fin n) : EReal :=
  Ideal.div (Ideal.exp (L s - rowMax L)) (∑ k : Fin n, Ideal.exp (L k - rowMax L))

/-- The f32 pattern of −∞ denotes the least extended real. -/
theorem ofBits_neg_inf : Ideal.ofBits .f32 0xFF800000#32 = ⊥ := by simp [Ideal.ofBits, Ideal.ieee]

/-- Taking the larger of −∞ and a fold of `max` that started from −∞ changes nothing. -/
theorem max_bot_rowMax {n : ℕ} (L : Fin n → EReal) : max ⊥ (rowMax L) = rowMax L := max_eq_right bot_le

/-- A block of rows put through the softmax tree of vector operations, read at entry (r, s): the softmax of row r at
    s. The column of row maxima and the column of row sums are each a lane reduction, cast to a column and stretched
    back over the row. -/
theorem softmax_rows_apply {a b : ℕ} (Lg : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin a) (s : Fin b) :
    divf (exp (subf Lg (broadcastTo ⟨2, ![a, b]⟩ (shapeCast ⟨2, ![a, 1]⟩
        (multiReduction .maximumf [1] ⟨1, ![a]⟩ Lg 0xFF800000#32 hr hφ hmax) hc) hb)))
      (broadcastTo ⟨2, ![a, b]⟩ (shapeCast ⟨2, ![a, 1]⟩
        (multiReduction .add [1] ⟨1, ![a]⟩
          (exp (subf Lg (broadcastTo ⟨2, ![a, b]⟩ (shapeCast ⟨2, ![a, 1]⟩
            (multiReduction .maximumf [1] ⟨1, ![a]⟩ Lg 0xFF800000#32 hr hφ hmax) hc) hb)))
          0x00000000#32 hr hφ hadd) hc) hb) (ix2 r s)
      = softmaxRow (fun k => Lg (ix2 r k)) s := by
  -- the stretched column of maxima holds, all along row r, that row's maximum
  have hM : ∀ k : Fin b, broadcastTo ⟨2, ![a, b]⟩ (shapeCast ⟨2, ![a, 1]⟩
        (multiReduction .maximumf [1] ⟨1, ![a]⟩ Lg 0xFF800000#32 hr hφ hmax) hc) hb (ix2 r k)
      = rowMax fun k => Lg (ix2 r k) := fun k =>
    (broadcastTo_a1_ab_apply _ hb r k).trans ((shapeCast_a_a1_apply _ hc r 0).trans
      ((multiReduction_max_row Lg _ hr hφ hmax r).trans (by rw [ofBits_neg_inf]; rfl)))
  -- so the exponentials along row r are those of the softmax
  have hE : ∀ k : Fin b, exp (subf Lg (broadcastTo ⟨2, ![a, b]⟩ (shapeCast ⟨2, ![a, 1]⟩
        (multiReduction .maximumf [1] ⟨1, ![a]⟩ Lg 0xFF800000#32 hr hφ hmax) hc) hb)) (ix2 r k)
      = Ideal.exp (Lg (ix2 r k) - rowMax fun k => Lg (ix2 r k)) := fun k => by
    show Ideal.exp (Lg (ix2 r k) - broadcastTo ⟨2, ![a, b]⟩ _ hb (ix2 r k)) = _
    rw [hM k]
  show Ideal.div (exp (subf Lg _) (ix2 r s)) (broadcastTo ⟨2, ![a, b]⟩ _ hb (ix2 r s)) = _
  rw [hE s]
  refine congrArg (Ideal.div _) ?_
  refine (broadcastTo_a1_ab_apply _ hb r s).trans ((shapeCast_a_a1_apply _ hc r 0).trans
    ((multiReduction_add_row _ _ hr hφ hadd r).trans ?_))
  exact Finset.sum_congr rfl fun k _ => hE k

/-- Real rows: scaling every entry of the left row by the reciprocal of a nonzero real `c` before contracting is
    dividing the contraction by `c`. -/
theorem sum_scaled_mul {K : ℕ} (c : ℝ) (hc : c ≠ 0) (x w : Fin K → EReal)
    (hx : ∀ k, ∃ r : ℝ, x k = r) (hw : ∀ k, ∃ r : ℝ, w k = r) :
    ∑ k : Fin K, (x k * ((1 / c : ℝ) : EReal)) * w k = Ideal.div (∑ k : Fin K, x k * w k) (c : EReal) := by
  choose x' hx' using hx; choose w' hw' using hw
  simp only [hx', hw']
  rw [Ideal.div_coe hc, Cert.Lib.RealSums.sum_coe_mul_coe, ← EReal.coe_mul]
  have h : ∀ k ∈ (Finset.univ : Finset (Fin K)),
      ((x' k : EReal) * ((1 / c : ℝ) : EReal)) * (w' k : EReal) = ((x' k * (1 / c) * w' k : ℝ) : EReal) := by
    intro k _; rw [← EReal.coe_mul, ← EReal.coe_mul]
  rw [Finset.sum_congr rfl h, ← Cert.Lib.RealSums.coe_sum]
  refine congrArg _ ?_
  rw [Finset.sum_mul]
  exact Finset.sum_congr rfl fun k _ => by ring

end Cert.Lib.SoftmaxRow

end
-- ==== Proof.AttnSpec.lean ====
/-
  Single-head cross-attention, entry by entry, on the extended reals.

  A batch of query rows, key rows and value rows is first sent through three linear maps (each row against
  every row of a weight matrix).  One output entry (b, q, d) is then: the scores of the projected query row q
  against every projected key row of the same batch element b, each multiplied by one fixed number; the softmax
  of that row of scores; and its contraction with column d of the projected value rows of b.  Nothing here
  regroups a sum or moves a factor across one, so no entry needs to be finite.
-/
import proofs.«130846_j80453327389402_2_alg».proof.Proof.LibSoftmaxRow
import Idealize.ShloMosaic.Lib.ValueIdx

noncomputable section

namespace Cert.Attn

open Idealize.ShloMosaic Idealize.ShloMosaic.ValueIdx Cert.Lib.SoftmaxRow
open scoped BigOperators

/-- The number every score is multiplied by: the value of the f32 word 0x3DB504F3 (the float nearest to
    128^(-1/2)).  Both programs print this same word, so its value is never computed. -/
abbrev scale : EReal := Ideal.ofBits .f32 0x3DB504F3#32

/-- A linear map applied to row l of batch element b: entry d is the row against row d of the weight. -/
def proj {B L I D : ℕ} (X : (⟨3, ![B, L, I]⟩ : Shape).Idx → EReal) (W : (⟨2, ![D, I]⟩ : Shape).Idx → EReal)
    (b : Fin B) (l : Fin L) (d : Fin D) : EReal :=
  ∑ i : Fin I, X (ix3 b l i) * W (ix2 d i)

/-- The scaled score of a query row against a key row. -/
def score {D : ℕ} (q k : Fin D → EReal) : EReal := (∑ e : Fin D, q e * k e) * scale

/-- One output entry: the softmax over the keys of one query row's scores, contracted with one column of values. -/
def attend {L D : ℕ} (q : Fin D → EReal) (K : Fin L → Fin D → EReal) (v : Fin L → EReal) : EReal :=
  ∑ k : Fin L, softmaxRow (fun k' => score q (K k')) k * v k

/-- The whole result array [B, Lq, D] as one function of the six argument arrays. -/
def result {B Lq Lk Iq Ik D : ℕ}
    (q : (⟨3, ![B, Lq, Iq]⟩ : Shape).Idx → EReal) (k v : (⟨3, ![B, Lk, Ik]⟩ : Shape).Idx → EReal)
    (wq : (⟨2, ![D, Iq]⟩ : Shape).Idx → EReal) (wk wv : (⟨2, ![D, Ik]⟩ : Shape).Idx → EReal) :
    (⟨3, ![B, Lq, D]⟩ : Shape).Idx → EReal :=
  fun i => attend (proj q wq (i 0) (i 1)) (proj k wk (i 0)) (fun l => proj v wv (i 0) l (i 2))

theorem result_ix3 {B Lq Lk Iq Ik D : ℕ}
    (q : (⟨3, ![B, Lq, Iq]⟩ : Shape).Idx → EReal) (k v : (⟨3, ![B, Lk, Ik]⟩ : Shape).Idx → EReal)
    (wq : (⟨2, ![D, Iq]⟩ : Shape).Idx → EReal) (wk wv : (⟨2, ![D, Ik]⟩ : Shape).Idx → EReal)
    (b : Fin B) (r : Fin Lq) (d : Fin D) :
    result q k v wq wk wv (ix3 b r d) = attend (proj q wq b r) (proj k wk b) (fun l => proj v wv b l d) := rfl

end Cert.Attn

end
-- ==== Proof.LibRowsDot.lean ====
/-
  A product of two matrices along their rows, read at an index, at the ideal values.

  For a left operand of shape [R, K] and a right operand of shape [C, K] contracted over the second axis of both
  (no batch axis: the product of the left operand with the transpose of the right), the kernel's matrix product
  into a zero accumulator and the host's `dot_general` are both, at output index (r, c), the sum over k of
  left (r, k) times right (c, k).  The extents R, K, C are symbolic: the same lemmas serve a block of rows of each
  operand and the whole arrays.
-/
import Idealize.ShloMosaic.PureOps.Ideal.Laws
import Idealize.ShloMosaic.Lib.ValueIdx

noncomputable section

namespace Cert.Lib.RowsDot

open Idealize.ShloMosaic Idealize.ShloMosaic.ValueIdx
open scoped BigOperators

variable {R K C : Nat}

/-- The left operand's index (r, k) for output index `j` = (r, c) and contraction position `k`. -/
abbrev leftIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index `j` = (r, c) and contraction position `k`. -/
abbrev rightIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- The product of an [R, K] array with the transpose of a [C, K] array, as a function of the output index. -/
def rowsDot (x : (⟨2, ![R, K]⟩ : Shape).Idx → EReal) (w : (⟨2, ![C, K]⟩ : Shape).Idx → EReal) :
    (⟨2, ![R, C]⟩ : Shape).Idx → EReal :=
  fun j => ∑ k : Fin K, x (leftIdx j k) * w (rightIdx j k)

/-- At coordinates: the sum over k of left (r, k) times right (c, k). -/
theorem rowsDot_ix2 (x : (⟨2, ![R, K]⟩ : Shape).Idx → EReal) (w : (⟨2, ![C, K]⟩ : Shape).Idx → EReal) (r : Fin R) (c : Fin C) :
    rowsDot x w (ix2 r c) = ∑ k : Fin K, x (ix2 r k) * w (ix2 c k) := by
  unfold rowsDot
  refine Finset.sum_congr rfl fun k _ => ?_
  have el : leftIdx (K := K) (ix2 r c) k = ix2 r k := funext fun a => Fin.ext (by match a with | ⟨0, _⟩ => rfl | ⟨1, _⟩ => rfl)
  have er : rightIdx (K := K) (ix2 r c) k = ix2 c k := funext fun a => Fin.ext (by match a with | ⟨0, _⟩ => rfl | ⟨1, _⟩ => rfl)
  rw [el, er]

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val = (q ⟨0, (show 0 < (DotDims.transposedRhs R K C).contr.rank from Nat.one_pos)⟩).val :=
  (DotDims.transposedRhs R K C).lhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl
theorem rhs1 (j : (⟨2, ![R, C]⟩ : Shape).Idx) (q : (DotDims.transposedRhs R K C).contr.Idx) :
    ((DotDims.transposedRhs R K C).rhsIdx j q 1).val = (q ⟨0, (show 0 < (DotDims.transposedRhs R K C).contr.rank from Nat.one_pos)⟩).val :=
  (DotDims.transposedRhs R K C).rhsIdx_val_of_single rfl j q

/-- The contraction's sum, re-indexed by the one contracted coordinate. -/
theorem sum_rows (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = rowsDot x w j := by
  unfold rowsDot
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k) = leftIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k) = rightIdx j k :=
    funext fun a => Fin.ext (by
      match a with
      | ⟨0, _⟩ => exact rhs0 _ _
      | ⟨1, _⟩ => exact (rhs1 _ _).trans hk)
  rw [el, er]

/-- The kernel's matrix product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = rowsDot x w j := by
  subst hd
  rw [Ideal.matmul_constant_zero_apply]
  exact sum_rows x w j

/-- The host's `dot_general`, at an index. -/
theorem dotGeneral_apply {φ₁ φ₂ : FTy} (d : DotDims ⟨2, ![R, K]⟩ ⟨2, ![C, K]⟩ ⟨2, ![R, C]⟩)
    (hd : d = DotDims.transposedRhs R K C) (prec : Option ContractPrecision) (sched : HostSchedule)
    (x : FVec Ideal ⟨2, ![R, K]⟩ φ₁) (w : FVec Ideal ⟨2, ![C, K]⟩ φ₂) (j : (⟨2, ![R, C]⟩ : Shape).Idx) :
    FloatOps.dotGeneral d prec sched x w j = rowsDot x w j := by
  subst hd
  rw [Ideal.dotGeneral_apply]
  exact sum_rows x w j

end Cert.Lib.RowsDot

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.AttnBlock.lean ====
/-
  One output tile of the kernel body, entry by entry, at the ideal values.

  The body's three payloads are chains of vector operations on whole blocks.  Read at one entry they are the
  specification's sums: a projection payload at (l, d) is row l of the block against row d of the weights; the
  attention payload at (r, d) projects query row r, scores it against every kept key row, scales, takes the
  softmax of that row of scores and contracts it with column d of the kept value rows.  A change of float format
  is the identity on the ideal values, so the narrowing steps between the products disappear.
-/
import proofs.«130846_j80453327389402_2_alg».proof.Proof.Gen.KernelIdeal.Skeleton
import proofs.«130846_j80453327389402_2_alg».proof.Proof.AttnSpec
import proofs.«130846_j80453327389402_2_alg».proof.Proof.LibRowsDot
import proofs.«130846_j80453327389402_2_alg».proof.Proof.LibPlainDot
import proofs.«130846_j80453327389402_2_alg».proof.Proof.LibSoftmaxRow
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.ValueIdx

namespace Cert.KernelIdeal.Block

open Cert.KernelIdeal Cert.KernelIdeal.Gen Cert.Attn Cert.Lib.SoftmaxRow
open scoped BigOperators

/-- A plain product at coordinates: the sum over k of left (r, k) times right (k, c). -/
theorem mm_ix2 {R K C : ℕ} (x : (⟨2, ![R, K]⟩ : Shape).Idx → EReal) (w : (⟨2, ![K, C]⟩ : Shape).Idx → EReal) (r : Fin R) (c : Fin C) :
    Cert.Lib.PlainDot.mm x w (ix2 r c) = ∑ k : Fin K, x (ix2 r k) * w (ix2 k c) := by
  unfold Cert.Lib.PlainDot.mm
  refine Finset.sum_congr rfl fun k _ => ?_
  have el : Cert.Lib.PlainDot.rowIdx (K := K) (ix2 r c) k = ix2 r k := funext fun a => Fin.ext (by match a with | ⟨0, _⟩ => rfl | ⟨1, _⟩ => rfl)
  have er : Cert.Lib.PlainDot.colIdx (K := K) (ix2 r c) k = ix2 k c := funext fun a => Fin.ext (by match a with | ⟨0, _⟩ => rfl | ⟨1, _⟩ => rfl)
  rw [el, er]

/-- The key payload at (l, d): key row l of the block against row d of the key weights. -/
theorem keys_apply (x1 : Vec Ideal S1x2048x768 .f32) (x4 : Vec Ideal S128x768 .f32) (l : Fin 2048) (d : Fin 128) :
    k0_pay1 (F := Ideal) x1 x4 (ix2 l d) = proj x1 x4 (0 : Fin 1) l d := by
  unfold k0_pay1
  refine (congrFun (shapeCast_self _ shapeCasts_S2048x128_S2048x128) (ix2 l d)).trans ?_
  refine (Cert.Lib.RowsDot.matmul_zero_apply dot_S2048x768_S128x768_S2048x128_1_1_0_0_n_n rfl none _ _ (ix2 l d)).trans ?_
  refine (Cert.Lib.RowsDot.rowsDot_ix2 _ _ l d).trans ?_
  exact Finset.sum_congr rfl fun i _ => congrArg (· * x4 (ix2 d i)) (shapeCast_1ab_ab_apply x1 shapeCasts_S1x2048x768_S2048x768 l i)

/-- The value payload at (l, d): the same with the value block and the value weights. -/
theorem values_apply (x2 : Vec Ideal S1x2048x768 .f32) (x5 : Vec Ideal S128x768 .f32) (l : Fin 2048) (d : Fin 128) :
    k0_pay2 (F := Ideal) x2 x5 (ix2 l d) = proj x2 x5 (0 : Fin 1) l d := by
  unfold k0_pay2
  refine (congrFun (shapeCast_self _ shapeCasts_S2048x128_S2048x128) (ix2 l d)).trans ?_
  refine (Cert.Lib.RowsDot.matmul_zero_apply dot_S2048x768_S128x768_S2048x128_1_1_0_0_n_n rfl none _ _ (ix2 l d)).trans ?_
  refine (Cert.Lib.RowsDot.rowsDot_ix2 _ _ l d).trans ?_
  exact Finset.sum_congr rfl fun i _ => congrArg (· * x5 (ix2 d i)) (shapeCast_1ab_ab_apply x2 shapeCasts_S1x2048x768_S2048x768 l i)

/-- The attention payload at (r, d): query row r projected, scored against every kept key row, scaled, put through
    the softmax of its row of scores, and contracted with column d of the kept value rows. -/
theorem tile_apply (x0 : Vec Ideal S1x1024x512 .f32) (x3 : Vec Ideal S128x512 .f32) (kp vp : Vec Ideal S2048x128 .bf16)
    (r : Fin 1024) (d : Fin 128) :
    k0_pay3 (F := Ideal) x0 x3 kp vp (ix3 (0 : Fin 1) r d)
      = attend (proj x0 x3 (0 : Fin 1) r) (fun l e => kp (ix2 l e)) (fun l => vp (ix2 l d)) := by
  unfold k0_pay3
  refine (shapeCast_ab_1ab_apply _ shapeCasts_S1024x128_S1x1024x128 (0 : Fin 1) r d).trans ?_
  refine (Cert.Lib.PlainDot.matmul_zero_apply dot_S1024x2048_S2048x128_S1024x128_1_0_0_1_n_n rfl none _ _ (ix2 r d)).trans ?_
  refine (mm_ix2 _ _ r d).trans ?_
  unfold attend
  refine Finset.sum_congr rfl fun k _ => congrArg (· * vp (ix2 k d)) ?_
  -- the probabilities are the softmax of the row of scaled scores
  refine (truncf_apply _ bitsLt_bf16_f32 (ix2 r k)).trans ?_
  refine (softmax_rows_apply _ reduces_S1024x2048_S1024 shapeCasts_S1024_S1024x1 broadcasts_S1024x1_S1024x2048 (.inl rfl) rfl rfl r k).trans ?_
  refine congrArg (fun L => softmaxRow L k) (funext fun k' => ?_)
  -- one scaled score: the projected query row against kept key row k'
  unfold score
  change _ * scale = _
  refine congrArg (· * scale) ?_
  refine (Cert.Lib.RowsDot.matmul_zero_apply dot_S1024x128_S2048x128_S1024x2048_1_1_0_0_n_n rfl none _ _ (ix2 r k')).trans ?_
  refine (Cert.Lib.RowsDot.rowsDot_ix2 _ _ r k').trans ?_
  refine Finset.sum_congr rfl fun e _ => congrArg (· * kp (ix2 k' e)) ?_
  -- one entry of the projected query row
  refine (truncf_apply _ bitsLt_bf16_f32 (ix2 r e)).trans ?_
  refine (Cert.Lib.RowsDot.matmul_zero_apply dot_S1024x512_S128x512_S1024x128_1_1_0_0_n_n rfl none _ _ (ix2 r e)).trans ?_
  refine (Cert.Lib.RowsDot.rowsDot_ix2 _ _ r e).trans ?_
  exact Finset.sum_congr rfl fun i _ => congrArg (· * x3 (ix2 e i)) (shapeCast_1ab_ab_apply x0 shapeCasts_S1x1024x512_S1024x512 r i)

/-- A tile of the result.  Suppose the point's query block holds rows o, o + 1, … of batch element b of the
    queries, its key and value blocks all rows of batch element b, and its weight blocks the whole weights.
    Then entry (r, d) of the tile the body stores, attending to the projections of those key and value blocks,
    is entry (b, o + r, d) of the specification's result. -/
theorem tile_entry (x0 : Vec Ideal S1x1024x512 .f32) (x1 x2 : Vec Ideal S1x2048x768 .f32) (x3 : Vec Ideal S128x512 .f32)
    (x4 x5 : Vec Ideal S128x768 .f32)
    (A0 : S8x2048x512.Idx → EReal) (A1 A2 : S8x2048x768.Idx → EReal) (A3 : S128x512.Idx → EReal) (A4 A5 : S128x768.Idx → EReal)
    (b : Fin 8) (o : ℕ) (ho : o + 1024 ≤ 2048)
    (h0 : ∀ (r : Fin 1024) (i : Fin 512), x0 (ix3 (0 : Fin 1) r i) = A0 (ix3 b (⟨o + r.val, by have := r.isLt; omega⟩ : Fin 2048) i))
    (h1 : ∀ (l : Fin 2048) (i : Fin 768), x1 (ix3 (0 : Fin 1) l i) = A1 (ix3 b l i))
    (h2 : ∀ (l : Fin 2048) (i : Fin 768), x2 (ix3 (0 : Fin 1) l i) = A2 (ix3 b l i))
    (h3 : ∀ (e : Fin 128) (i : Fin 512), x3 (ix2 e i) = A3 (ix2 e i))
    (h4 : ∀ (e : Fin 128) (i : Fin 768), x4 (ix2 e i) = A4 (ix2 e i))
    (h5 : ∀ (e : Fin 128) (i : Fin 768), x5 (ix2 e i) = A5 (ix2 e i))
    (r : Fin 1024) (d : Fin 128) :
    k0_pay3 (F := Ideal) x0 x3 (k0_pay1 x1 x4) (k0_pay2 x2 x5) (ix3 (0 : Fin 1) r d)
      = result A0 A1 A2 A3 A4 A5 (ix3 b (⟨o + r.val, by have := r.isLt; omega⟩ : Fin 2048) d) := by
  refine (tile_apply x0 x3 _ _ r d).trans ?_
  refine Eq.trans ?_ (result_ix3 A0 A1 A2 A3 A4 A5 b _ d).symm
  have eq : proj x0 x3 (0 : Fin 1) r = proj A0 A3 b (⟨o + r.val, by have := r.isLt; omega⟩ : Fin 2048) :=
    funext fun e => Finset.sum_congr rfl fun i _ => by rw [h0, h3]
  have ek : (fun (l : Fin 2048) (e : Fin 128) => k0_pay1 (F := Ideal) x1 x4 (ix2 l e)) = proj A1 A4 b :=
    funext fun l => funext fun e => (keys_apply x1 x4 l e).trans (Finset.sum_congr rfl fun i _ => by rw [h1, h4])
  have ev : (fun (l : Fin 2048) => k0_pay2 (F := Ideal) x2 x5 (ix2 l d)) = fun l => proj A2 A5 b l d :=
    funext fun l => (values_apply x2 x5 l d).trans (Finset.sum_congr rfl fun i _ => by rw [h2, h5])
  rw [eq, ek, ev]

end Cert.KernelIdeal.Block

end
-- ==== Proof.KernelValue.lean ====
/-
  The kernel's result array, whole.

  Every point writes its output tile back to its own block of the result array, the sixteen blocks tile the array,
  and each tile is the matching block of the specification's result of the six argument arrays.  So after the run
  the result array is the specification's result.
-/
import proofs.«130846_j80453327389402_2_alg».proof.Proof.Gen.KernelIdeal.Value
import proofs.«130846_j80453327389402_2_alg».proof.Proof.PointValues
import proofs.«130846_j80453327389402_2_alg».proof.Proof.AttnBlock

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Points Cert.KernelIdeal.Block Cert.Attn

variable (m : (ℓ : Loc nD τ sig) → Buf (Elt Ideal) ℓ) (ρ : Dev nD → PrngReg)

/-- The specification's result of the six argument arrays as the run finds them. -/
abbrev spec (c : Dev nD) : S8x2048x128.Idx → EReal :=
  result (V m c main_arg0) (V m c main_arg1) (V m c main_arg2) (V m c main_arg3) (V m c main_arg4) (V m c main_arg5)

/-- What point t writes back is block t of the specification's result. -/
theorem flushed_eq (c : Dev nD) (t : Fin cfg0.N) :
    (dats m 0 c).flushed 6 t = ((cfg0.win 6).blk t).view.read (Elt Ideal) (spec m c) := by
  rw [Cert.KernelIdeal.Value.flushed6, outsAt_eq m c t.val t.isLt]
  refine ext_1ab (a := 1024) (b := 128) _ _ fun r d => ?_
  rw [View.read_apply, out_emb]
  exact tile_entry (iblk m c 0 t) (iblk m c 1 t) (iblk m c 2 t) (iblk m c 3 t) (iblk m c 4 t) (iblk m c 5 t)
    (V m c main_arg0) (V m c main_arg1) (V m c main_arg2) (V m c main_arg3) (V m c main_arg4) (V m c main_arg5)
    (batchOf t) (rowOff t) (rowOff_le t)
    (q_block m c t) (k_block m c t) (v_block m c t) (wq_block m c t) (wk_block m c t) (wv_block m c t) r d

/-- The result array after the run. -/
theorem final (c : Dev nD) : (dats m 0 c).arrAt 6 cfg0.N = spec m c :=
  (dats m 0 c).arrAt_eq_of_cover 6 (spec m c) (fun t _ => flushed_eq m c t) out_cover

/-- The run: the result array ends at the specification's result, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.RefValue.lean ====
/-
  The reference program is the specification.

  The reference projects the whole query, key and value arrays, contracts the projected queries with the projected
  keys batch element by batch element, scales, takes the softmax along the keys (a maximum, a shifted exponential,
  a sum, a quotient, each spread back over the row), and contracts with the projected values.  Read one entry at a
  time this is the specification's result: the maximum from −∞ is the row's largest entry (taking the larger of
  −∞ and it changes nothing), and the sum from zero is the row's sum.
-/
import proofs.«130846_j80453327389402_2_alg».proof.Proof.Gen.ReferenceIdeal.Read
import proofs.«130846_j80453327389402_2_alg».proof.Proof.AttnSpec
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.Attn Cert.Lib.SoftmaxRow
open scoped BigOperators

variable (x0 : (⟨S8x2048x512, .f32⟩ : BufTy).Contents (Elt Ideal)) (x1 x2 : (⟨S8x2048x768, .f32⟩ : BufTy).Contents (Elt Ideal))
  (x3 : (⟨S128x512, .f32⟩ : BufTy).Contents (Elt Ideal)) (x4 x5 : (⟨S128x768, .f32⟩ : BufTy).Contents (Elt Ideal))

/-- The projected queries, entry by entry. -/
theorem q_apply (b : Fin 8) (q : Fin 2048) (e : Fin 128) : val_main_v0 (F := Ideal) x0 x3 (ix3 b q e) = proj x0 x3 b q e := by
  rw [val_main_v0_apply]
  refine Finset.sum_congr rfl fun i _ => ?_
  rw [(funext fun a => Fin.ext (by match a with | ⟨0, _⟩ => rfl | ⟨1, _⟩ => rfl | ⟨2, _⟩ => rfl) : lidx_main_v0 (ix3 b q e) i = ix3 b q i), (funext fun a => Fin.ext (by match a with | ⟨0, _⟩ => rfl | ⟨1, _⟩ => rfl) : ridx_main_v0 (ix3 b q e) i = ix2 e i)]

/-- The projected keys, entry by entry. -/
theorem k_apply (b : Fin 8) (k : Fin 2048) (e : Fin 128) : val_main_v1 (F := Ideal) x1 x4 (ix3 b k e) = proj x1 x4 b k e := by
  rw [val_main_v1_apply]
  refine Finset.sum_congr rfl fun i _ => ?_
  rw [(funext fun a => Fin.ext (by match a with | ⟨0, _⟩ => rfl | ⟨1, _⟩ => rfl | ⟨2, _⟩ => rfl) : lidx_main_v1 (ix3 b k e) i = ix3 b k i), (funext fun a => Fin.ext (by match a with | ⟨0, _⟩ => rfl | ⟨1, _⟩ => rfl) : ridx_main_v1 (ix3 b k e) i = ix2 e i)]

/-- The projected values, entry by entry. -/
theorem v_apply (b : Fin 8) (k : Fin 2048) (d : Fin 128) : val_main_v2 (F := Ideal) x2 x5 (ix3 b k d) = proj x2 x5 b k d := by
  rw [val_main_v2_apply]
  refine Finset.sum_congr rfl fun i _ => ?_
  rw [(funext fun a => Fin.ext (by match a with | ⟨0, _⟩ => rfl | ⟨1, _⟩ => rfl | ⟨2, _⟩ => rfl) : lidx_main_v2 (ix3 b k d) i = ix3 b k i), (funext fun a => Fin.ext (by match a with | ⟨0, _⟩ => rfl | ⟨1, _⟩ => rfl) : ridx_main_v2 (ix3 b k d) i = ix2 d i)]

/-- The row of scaled scores of query row (b, q) against the keys of batch element b. -/
abbrev row (b : Fin 8) (q : Fin 2048) : Fin 2048 → EReal := fun k => score (proj x0 x3 b q) (proj x1 x4 b k)

theorem scores_apply (b : Fin 8) (q k : Fin 2048) :
    val_main_v5 (F := Ideal) x0 x1 x3 x4 (ix3 b q k) = row x0 x1 x3 x4 b q k := by
  rw [val_main_v5_apply, val_main_v3_apply, val_main_v4_apply, val_main_cst_apply]
  show (∑ e : Fin 128, _) * scale = (∑ e : Fin 128, _) * scale
  refine congrArg (· * scale) (Finset.sum_congr rfl fun e _ => ?_)
  rw [(funext fun a => Fin.ext (by match a with | ⟨0, _⟩ => rfl | ⟨1, _⟩ => rfl | ⟨2, _⟩ => rfl) : lidx_main_v3 (ix3 b q k) e = ix3 b q e), (funext fun a => Fin.ext (by match a with | ⟨0, _⟩ => rfl | ⟨1, _⟩ => rfl | ⟨2, _⟩ => rfl) : ridx_main_v3 (ix3 b q k) e = ix3 b k e), q_apply, k_apply]

/-- Putting coordinate k back on the reduced axis of (b, q). -/
theorem lift_eq (h : S8x2048x2048.Reduces [2] S8x2048) (b : Fin 8) (q : Fin 2048) (k : Fin (S8x2048x2048.size 2)) :
    h.lift (ix2 b q) k = ix3 b q (⟨k.val, k.isLt⟩ : Fin 2048) :=
  funext fun a => Fin.ext (by match a with | ⟨0, _⟩ => rfl | ⟨1, _⟩ => rfl | ⟨2, _⟩ => rfl)

theorem max_apply (b : Fin 8) (q : Fin 2048) :
    val_main_v8 (F := Ideal) x0 x1 x3 x4 (ix2 b q) = rowMax (row x0 x1 x3 x4 b q) := by
  rw [val_main_v8_apply, val_main_v7_apply, val_main_cst_1_apply]
  have h6 : val_main_v6 (F := Ideal) x0 x1 x3 x4 (ix2 b q) = rowMax (row x0 x1 x3 x4 b q) := by
    unfold val_main_v6
    rw [Host.reduce_eq_fold_single FloatOps.maximumf _ _ reducesTo_S8x2048x2048_S8x2048_d2 (by decide) h_S_]
    unfold rowMax
    show Finset.fold max (Ideal.ofBits .f32 0xFF800000#32) _ (Finset.univ : Finset (Fin 2048)) = _
    rw [ofBits_neg_inf]
    refine congrArg (fun f => Finset.fold max ⊥ f (Finset.univ : Finset (Fin 2048))) (funext fun k => ?_)
    show val_main_v5 (F := Ideal) x0 x1 x3 x4 (Shape.Reduces.lift _ (ix2 b q) k) = _
    rw [lift_eq, scores_apply]
    rfl
  show max (Ideal.ofBits .f32 0xFF800000#32) (val_main_v6 (F := Ideal) x0 x1 x3 x4 (ix2 b q)) = _
  rw [ofBits_neg_inf, h6]
  exact max_bot_rowMax _

theorem exp_apply (b : Fin 8) (q k : Fin 2048) :
    val_main_v12 (F := Ideal) x0 x1 x3 x4 (ix3 b q k)
      = Ideal.exp (row x0 x1 x3 x4 b q k - rowMax (row x0 x1 x3 x4 b q)) := by
  rw [val_main_v12_apply, val_main_v11_apply, val_main_v10_apply, val_main_v9_apply,
    (funext fun a => Fin.ext (by match a with | ⟨0, _⟩ => rfl | ⟨1, _⟩ => rfl) : idx_main_v9 (idx_main_v10 (ix3 b q k)) = ix2 b q), scores_apply, max_apply]
  rfl

theorem sum_apply (b : Fin 8) (q : Fin 2048) :
    val_main_v13 (F := Ideal) x0 x1 x3 x4 (ix2 b q)
      = ∑ k : Fin 2048, Ideal.exp (row x0 x1 x3 x4 b q k - rowMax (row x0 x1 x3 x4 b q)) := by
  rw [val_main_v13_apply, val_main_cst_2_apply]
  show Ideal.ofBits .f32 0x00000000#32 + _ = _
  rw [Ideal.ofBits_zero_f32, zero_add]
  refine Finset.sum_congr rfl fun k _ => ?_
  rw [(funext fun a => Fin.ext (by match a with | ⟨0, _⟩ => rfl | ⟨1, _⟩ => rfl | ⟨2, _⟩ => rfl) : idx_main_v13 (ix2 b q) k = ix3 b q k), exp_apply]

theorem probs_apply (b : Fin 8) (q k : Fin 2048) :
    val_main_v16 (F := Ideal) x0 x1 x3 x4 (ix3 b q k) = softmaxRow (row x0 x1 x3 x4 b q) k := by
  rw [val_main_v16_apply, val_main_v15_apply, val_main_v14_apply,
    (funext fun a => Fin.ext (by match a with | ⟨0, _⟩ => rfl | ⟨1, _⟩ => rfl) : idx_main_v14 (idx_main_v15 (ix3 b q k)) = ix2 b q), exp_apply, sum_apply]
  rfl

/-- The reference's result is the specification's result of its six arguments. -/
theorem ref_eq : val_main_v17 (F := Ideal) x0 x1 x2 x3 x4 x5 = result x0 x1 x2 x3 x4 x5 := by
  funext i
  obtain ⟨b, q, d, rfl⟩ : ∃ (b : Fin 8) (q : Fin 2048) (d : Fin 128), i = ix3 b q d := ⟨i 0, i 1, i 2, eq_ix3 i⟩
  rw [val_main_v17_apply, result_ix3]
  unfold attend
  refine Finset.sum_congr rfl fun k _ => ?_
  rw [(funext fun a => Fin.ext (by match a with | ⟨0, _⟩ => rfl | ⟨1, _⟩ => rfl | ⟨2, _⟩ => rfl) : lidx_main_v17 (ix3 b q d) k = ix3 b q k), (funext fun a => Fin.ext (by match a with | ⟨0, _⟩ => rfl | ⟨1, _⟩ => rfl | ⟨2, _⟩ => rfl) : ridx_main_v17 (ix3 b q d) k = ix3 b k d), probs_apply, v_apply]

end Cert.ReferenceIdeal.RefValue

end
-- ==== Proof.lean ====
/-
  Single-head cross-attention fused into one kernel, against its plain array reference.

  The kernel walks a grid of 8 batch elements × 2 tiles of 1024 query rows.  At the first tile of a batch element
  it projects that batch element's 2048 key rows and 2048 value rows (each row against the 128 rows of a weight
  matrix) and keeps the two projections; at every tile it projects its query rows, scores them against the kept
  key projection, multiplies by one fixed number, takes the softmax of each row of scores, and contracts the result
  with the kept value projection.  The reference does the same on whole arrays.

  On the ideal values the two are one function, entry by entry, of the six argument arrays
  (`Cert.Attn.result`): a change of float format is the identity; a matrix product into a zero accumulator and
  the host's contraction are the same sum; the scale is the same float word on both sides; the maximum, the
  exponential, the sum and the quotient of the softmax are the same operations in the same order.  No sum is
  regrouped and no factor is moved across a sum, so the finiteness of the inputs is never used.

  The kernel's side: what each grid point stores is read back from the run (`Pieces`), an induction over the
  points shows the kept projections are always those of the point's own batch element (`PointValues`), each output
  tile is the matching block of the specification (`AttnBlock`, `Blocks`), and the sixteen blocks tile the result
  array (`KernelValue`).  The reference's side: its operations, read one entry at a time, compose to the same
  specification (`RefValue`).  The three frame claims are the two generated kernel frames and the reference's
  generated run; the idealization rewrote nothing, so the fourth claim is trivial.
-/
import proofs.«130846_j80453327389402_2_alg».proof.Defs
import proofs.«130846_j80453327389402_2_alg».proof.Proof.Gen.Kernel
import proofs.«130846_j80453327389402_2_alg».proof.Proof.Gen.Kernel.Frame
import proofs.«130846_j80453327389402_2_alg».proof.Proof.Gen.KernelIdeal
import proofs.«130846_j80453327389402_2_alg».proof.Proof.Gen.KernelIdeal.Frame
import proofs.«130846_j80453327389402_2_alg».proof.Proof.Gen.KernelIdeal.Value
import proofs.«130846_j80453327389402_2_alg».proof.Proof.Gen.ReferenceIdeal
import proofs.«130846_j80453327389402_2_alg».proof.Proof.Gen.ReferenceIdeal.Run
import proofs.«130846_j80453327389402_2_alg».proof.Proof.Gen.ReferenceIdeal.Read
import proofs.«130846_j80453327389402_2_alg».proof.Proof.Gen.Pre_finite_inputs
import proofs.«130846_j80453327389402_2_alg».proof.Proof.KernelValue
import proofs.«130846_j80453327389402_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification's result of arguments that agree. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _ _ _).trans ?_
  refine (Cert.ReferenceIdeal.RefValue.ref_eq _ _ _ _ _ _).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
